-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x32 : Shape := ⟨2, ![50000, 32]⟩
abbrev S100000x128 : Shape := ⟨2, ![100000, 128]⟩
abbrev S128x128 : Shape := ⟨2, ![128, 128]⟩
abbrev S384 : Shape := ⟨1, ![384]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg7 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S384 .f32 := Host.absf main_arg7
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : IVec S50000 32) (main_arg1 : IVec S50000x32 32) (main_arg2 : IVec S50000x32 32) (main_arg3 : FVec F S100000x128 .f32) (main_arg4 : FVec F S128x128 .f32) (main_arg5 : FVec F S128x128 .f32) (main_arg6 : FVec F S128x128 .f32) (main_arg7 : FVec F S384 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_v13 main_v16
-- ==== Kernel.lean ====
abbrev S50000 : Shape := ⟨1, ![50000]⟩
abbrev S50000x32 : Shape := ⟨2, ![50000, 32]⟩
abbrev S100000x128 : Shape := ⟨2, ![100000, 128]⟩
abbrev S128x128 : Shape := ⟨2, ![128, 128]⟩
abbrev S384 : Shape := ⟨1, ![384]⟩
abbrev S_ : Shape := ⟨0, ![]⟩
abbrev S50000x1 : Shape := ⟨2, ![50000, 1]⟩
abbrev S50000x128 : Shape := ⟨2, ![50000, 128]⟩
abbrev S50000x32x1 : Shape := ⟨3, ![50000, 32, 1]⟩
abbrev S50000x32x128 : Shape := ⟨3, ![50000, 32, 128]⟩
abbrev S1x384 : Shape := ⟨2, ![1, 384]⟩
abbrev S50000x384 : Shape := ⟨2, ![50000, 384]⟩
abbrev S400x128 : Shape := ⟨2, ![400, 128]⟩
abbrev S400x32x128 : Shape := ⟨3, ![400, 32, 128]⟩
abbrev S400x384 : Shape := ⟨2, ![400, 384]⟩
abbrev S400 : Shape := ⟨1, ![400]⟩
abbrev S400x1 : Shape := ⟨2, ![400, 1]⟩

abbrev nBuf : Space → Nat
  | .hbm => 37
  | .vmem => 12
  | .smem => 0
  | _ => 0

abbrev bufTy : (tb : Table) → Fin (tcTables nBuf tb) → BufTy
  | .hbm, ⟨0, _⟩ => ⟨S50000, .i32⟩
  | .hbm, ⟨1, _⟩ => ⟨S50000x32, .i32⟩
  | .hbm, ⟨2, _⟩ => ⟨S50000x32, .i32⟩
  | .hbm, ⟨3, _⟩ => ⟨S100000x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S384, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x128, .f32⟩
  | .hbm, ⟨17, _⟩ => ⟨S_, .i32⟩
  | .hbm, ⟨18, _⟩ => ⟨S50000x32, .i32⟩
  | .hbm, ⟨19, _⟩ => ⟨S50000x32, .i1⟩
  | .hbm, ⟨20, _⟩ => ⟨S_, .i32⟩
  | .hbm, ⟨21, _⟩ => ⟨S50000x32, .i32⟩
  | .hbm, ⟨22, _⟩ => ⟨S50000x32, .i32⟩
  | .hbm, ⟨23, _⟩ => ⟨S50000x32, .i32⟩
  | .hbm, ⟨24, _⟩ => ⟨S50000x32x1, .i32⟩
  | .hbm, ⟨25, _⟩ => ⟨S50000x32x128, .f32⟩
  | .hbm, ⟨26, _⟩ => ⟨S_, .i32⟩
  | .hbm, ⟨27, _⟩ => ⟨S50000x32, .i32⟩
  | .hbm, ⟨28, _⟩ => ⟨S50000x32, .i1⟩
  | .hbm, ⟨29, _⟩ => ⟨S_, .i32⟩
  | .hbm, ⟨30, _⟩ => ⟨S50000x32, .i32⟩
  | .hbm, ⟨31, _⟩ => ⟨S50000x32, .i32⟩
  | .hbm, ⟨32, _⟩ => ⟨S50000x32, .i32⟩
  | .hbm, ⟨33, _⟩ => ⟨S50000x32x1, .i32⟩
  | .hbm, ⟨34, _⟩ => ⟨S50000x32x128, .f32⟩
  | .hbm, ⟨35, _⟩ => ⟨S1x384, .f32⟩
  | .hbm, ⟨36, _⟩ => ⟨S50000x384, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S400x32x128, .f32⟩
  | .local _ .vmem, ⟨5, _⟩ => ⟨S400x32x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x384, .f32⟩
  | .local _ .vmem, ⟨10, _⟩ => ⟨S400x384, .f32⟩
  | .local _ .vmem, ⟨11, _⟩ => ⟨S400x384, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  shapeCasts_S384_S1x384 : S384.ShapeCasts S1x384
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S400x32x128_S400x32x128_0_0_0 : ∀ a, (![0, 0, 0] : Fin 3 → Nat) a + S400x32x128.size a ≤ S400x32x128.size a
  h_S400x32x128 : 0 < S400x32x128.numel
  shapeCasts_S400x32x128_S400x32x128 : S400x32x128.ShapeCasts S400x32x128
  inb_S128x128_S128x128_0_0 : ∀ a, (![0, 0] : Fin 2 → Nat) a + S128x128.size a ≤ S128x128.size a
  h_S128x128 : 0 < S128x128.numel
  reduces_S400x32x128_S400x128 : S400x32x128.Reduces [1] S400x128
  concatenates_S400x128_S400x128_S400x128_S400x384_d1 : Shape.Concatenates [S400x128, S400x128, S400x128] S400x384 1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S400x384 : S1x384.Broadcasts S400x384
  reduces_S400x384_S400 : S400x384.Reduces [1] S400
  shapeCasts_S400_S400x1 : S400.ShapeCasts S400x1
  broadcasts_S400x1_S400x384 : S400x1.Broadcasts S400x384
  inb_S400x384_S400x384_0_0 : ∀ a, (![0, 0] : Fin 2 → Nat) a + S400x384.size a ≤ S400x384.size a
  h_S400x384 : 0 < S400x384.numel
  gather_S100000x128_S50000x1_S50000x128_1_0_n_n_0_1_1128_wf : GatherDims.WF S100000x128 S50000x1 S50000x128 [1] [0] [] [0] [] 1 ![1, 128]
  gather_S100000x128_S50000x32x1_S50000x32x128_2_0_n_n_0_2_1128_wf : GatherDims.WF S100000x128 S50000x32x1 S50000x32x128 [2] [0] [] [0] [] 2 ![1, 128]
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S50000x128.size a
  hwx0_0 : ∀ i : grid0.Coords, EltTy.bits .f32 = 32 ∨ (Rect.block (s := S50000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S50000x32x128.size a
  hwx0_1 : ∀ i : grid0.Coords, EltTy.bits .f32 = 32 ∨ (Rect.block (s := S50000x32x128) S400x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32x128.size a ≤ S50000x32x128.size a
  hwx0_2 : ∀ i : grid0.Coords, EltTy.bits .f32 = 32 ∨ (Rect.block (s := S50000x32x128) S400x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x384.size a ≤ S50000x384.size a
  hwx0_7 : ∀ i : grid0.Coords, EltTy.bits .f32 = 32 ∨ (Rect.block (s := S50000x384) S400x384.size (cc0_transform_7 i) (hinb0_7 i)).WholeWords (EltTy.packing .f32)

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S100000x128_S50000x32x1_S50000x32x128_2_0_n_n_0_2_1128 : GatherDims S100000x128 S50000x32x1 S50000x32x128 where
  offsetDims := [2]
  collapsedSliceDims := [0]
  operandBatchingDims := []
  startIndicesBatchingDims := []
  startIndexMap := [0]
  indexVectorDim := 2
  sliceSizes := ![1, 128]
  wf := gather_S100000x128_S50000x32x1_S50000x32x128_2_0_n_n_0_2_1128_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_v6) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S400x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S400x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000 : Shape := ⟨1, ![50000]⟩
abbrev S50000x32 : Shape := ⟨2, ![50000, 32]⟩
abbrev S100000x128 : Shape := ⟨2, ![100000, 128]⟩
abbrev S128x128 : Shape := ⟨2, ![128, 128]⟩
abbrev S384 : Shape := ⟨1, ![384]⟩
abbrev S_ : Shape := ⟨0, ![]⟩
abbrev S50000x1 : Shape := ⟨2, ![50000, 1]⟩
abbrev S50000x128 : Shape := ⟨2, ![50000, 128]⟩
abbrev S50000x32x1 : Shape := ⟨3, ![50000, 32, 1]⟩
abbrev S50000x32x128 : Shape := ⟨3, ![50000, 32, 128]⟩
abbrev S50000x384 : Shape := ⟨2, ![50000, 384]⟩
abbrev S1x384 : Shape := ⟨2, ![1, 384]⟩

abbrev nBuf : Space → Nat
  | .hbm => 69
  | .vmem => 0
  | .smem => 0
  | _ => 0

abbrev bufTy : (tb : Table) → Fin (tcTables nBuf tb) → BufTy
  | .hbm, ⟨0, _⟩ => ⟨S50000, .i32⟩
  | .hbm, ⟨1, _⟩ => ⟨S50000x32, .i32⟩
  | .hbm, ⟨2, _⟩ => ⟨S50000x32, .i32⟩
  | .hbm, ⟨3, _⟩ => ⟨S100000x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S384, .f32⟩
  | .hbm, ⟨8, _⟩ => ⟨S_, .i32⟩
  | .hbm, ⟨9, _⟩ => ⟨S50000, .i32⟩
  | .hbm, ⟨10, _⟩ => ⟨S50000, .i1⟩
  | .hbm, ⟨11, _⟩ => ⟨S_, .i32⟩
  | .hbm, ⟨12, _⟩ => ⟨S50000, .i32⟩
  | .hbm, ⟨13, _⟩ => ⟨S50000, .i32⟩
  | .hbm, ⟨14, _⟩ => ⟨S50000, .i32⟩
  | .hbm, ⟨15, _⟩ => ⟨S50000x1, .i32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S50000x32, .i32⟩
  | .hbm, ⟨20, _⟩ => ⟨S50000x32, .i1⟩
  | .hbm, ⟨21, _⟩ => ⟨S_, .i32⟩
  | .hbm, ⟨22, _⟩ => ⟨S50000x32, .i32⟩
  | .hbm, ⟨23, _⟩ => ⟨S50000x32, .i32⟩
  | .hbm, ⟨24, _⟩ => ⟨S50000x32, .i32⟩
  | .hbm, ⟨25, _⟩ => ⟨S50000x32x1, .i32⟩
  | .hbm, ⟨26, _⟩ => ⟨S50000x32x128, .f32⟩
  | .hbm, ⟨27, _⟩ => ⟨S_, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S50000x32, .i32⟩
  | .hbm, ⟨35, _⟩ => ⟨S50000x32, .i1⟩
  | .hbm, ⟨36, _⟩ => ⟨S_, .i32⟩
  | .hbm, ⟨37, _⟩ => ⟨S50000x32, .i32⟩
  | .hbm, ⟨38, _⟩ => ⟨S50000x32, .i32⟩
  | .hbm, ⟨39, _⟩ => ⟨S50000x32, .i32⟩
  | .hbm, ⟨40, _⟩ => ⟨S50000x32x1, .i32⟩
  | .hbm, ⟨41, _⟩ => ⟨S50000x32x128, .f32⟩
  | .hbm, ⟨42, _⟩ => ⟨S_, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x384, .f32⟩
  | .hbm, ⟨49, _⟩ => ⟨S1x384, .f32⟩
  | .hbm, ⟨50, _⟩ => ⟨S50000x384, .f32⟩
  | .hbm, ⟨51, _⟩ => ⟨S50000x384, .f32⟩
  | .hbm, ⟨52, _⟩ => ⟨S_, .f32⟩
  | .hbm, ⟨53, _⟩ => ⟨S50000x384, .f32⟩
  | .hbm, ⟨54, _⟩ => ⟨S50000x384, .i1⟩
  | .hbm, ⟨55, _⟩ => ⟨S_, .f32⟩
  | .hbm, ⟨56, _⟩ => ⟨S50000x384, .f32⟩
  | .hbm, ⟨57, _⟩ => ⟨S50000x384, .f32⟩
  | .hbm, ⟨58, _⟩ => ⟨S50000x384, .f32⟩
  | .hbm, ⟨59, _⟩ => ⟨S50000x384, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x384, .f32⟩
  | .hbm, ⟨68, _⟩ => ⟨S50000x384, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  reducesTo_S50000x32x128_S50000x128_d1 : S50000x32x128.ReducesTo [1] S50000x128
  h_S_ : 0 < S_.numel
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  reducesTo_S50000x384_S50000_d1 : S50000x384.ReducesTo [1] S50000
  bcast_S_S50000x1 : S_.BroadcastsInDim S50000x1 (![] : Fin 0 → Fin S50000x1.rank)
  bcast_S50000x1_S50000x384_0_1 : S50000x1.BroadcastsInDim S50000x384 (![0, 1] : Fin 2 → Fin S50000x384.rank)
  gather_S100000x128_S50000x1_S50000x128_1_0_n_n_0_1_1128_wf : GatherDims.WF S100000x128 S50000x1 S50000x128 [1] [0] [] [0] [] 1 ![1, 128]
  dot_S50000x128_S128x128_S50000x128_1_0_0_1_n_n_wf : DotDims.WF S50000x128 S128x128 S50000x128 [1] [0] [0] [1] [] []
  gather_S100000x128_S50000x32x1_S50000x32x128_2_0_n_n_0_2_1128_wf : GatherDims.WF S100000x128 S50000x32x1 S50000x32x128 [2] [0] [] [0] [] 2 ![1, 128]

variable [Facts₀]

def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S50000x32x1_S50000x32x128_2_0_n_n_0_2_1128 : GatherDims S100000x128 S50000x32x1 S50000x32x128 where
  offsetDims := [2]
  collapsedSliceDims := [0]
  operandBatchingDims := []
  startIndicesBatchingDims := []
  startIndexMap := [0]
  indexVectorDim := 2
  sliceSizes := ![1, 128]
  wf := gather_S100000x128_S50000x32x1_S50000x32x128_2_0_n_n_0_2_1128_wf

class Facts : Prop extends Facts₀ where

variable [Facts]
-- ==== Proof.NodeRow.lean ====
/-
  One output row of the layer as a function of that row's data, on the extended reals.

  A node's output row (384 lanes) depends on the node's own embedding row u (128 lanes), the embedding rows a_j and d_j
  of its 32 neighbours of each of two kinds, the three 128 × 128 weight matrices and the 384-lane bias:

    branch 0, lane n   :  Σ_q u(q) · ws(q, n)
    branch 1, lane n   :  Σ_q (Σ_j a_j(q) / 32) · wa(q, n)          (the neighbours' mean, projected)
    branch 2, lane n   :  Σ_q (Σ_j d_j(q) / 32) · wd(q, n)
    feat(c)            :  branch ⌊c / 128⌋ at lane c mod 128, plus bias(c)     (the branches laid side by side)
    act(c)             :  feat(c) if feat(c) ≥ 0, else 0.2 · feat(c)
    out(c)             :  act(c) / max(√(Σ_c' act(c')²), 1e-12)

  The three constants stay the 32-bit words both programs spell (32.0, 0.2 as its nearest float, 1e-12 as its nearest
  float): only that the two sides carry the same words matters, never the words' values.
-/
import Idealize.ShloMosaic.PureOps.Ideal
import Idealize.ShloMosaic.Lib.ValueIdx

noncomputable section

open scoped BigOperators

namespace Cert.NodeRow

open Idealize.ShloMosaic

/-- A row times a weight matrix, at lane n. -/
def proj (u : Fin 128 → EReal) (w : Fin 128 → Fin 128 → EReal) (n : Fin 128) : EReal :=
  ∑ q : Fin 128, u q * w q n

/-- The mean of 32 rows, lane by lane: their sum divided by the float 32. -/
def mean32 (a : Fin 32 → Fin 128 → EReal) (q : Fin 128) : EReal :=
  Ideal.div (∑ j : Fin 32, a j q) (Ideal.ofBits .f32 0x42000000#32)

/-- The three projected branches: the node's own row, and the two neighbour means. -/
def branch (u : Fin 128 → EReal) (a d : Fin 32 → Fin 128 → EReal) (ws wa wd : Fin 128 → Fin 128 → EReal) :
    Fin 3 → Fin 128 → EReal :=
  ![proj u ws, proj (mean32 a) wa, proj (mean32 d) wd]

/-- The slope-0.2 leaky rectifier, as both programs select it: x where x ≥ 0, the float 0.2 times x elsewhere. -/
def leaky (x : EReal) : EReal :=
  Scalar.select (Ideal.cmp .oge x (Ideal.ofBits .f32 0x00000000#32)) x (Ideal.ofBits .f32 0x3E4CCCCD#32 * x)

/-- Lane c of the activated features: the branches side by side, plus the bias, through the rectifier. -/
def act (u : Fin 128 → EReal) (a d : Fin 32 → Fin 128 → EReal) (ws wa wd : Fin 128 → Fin 128 → EReal)
    (bias : Fin 384 → EReal) (c : Fin 384) : EReal :=
  leaky (branch u a d ws wa wd ⟨c.val / 128, by have := c.isLt; omega⟩ ⟨c.val % 128, Nat.mod_lt _ (by norm_num)⟩ + bias c)

/-- The row's Euclidean norm: the square root of the sum of the squared lanes. -/
def norm (f : Fin 384 → EReal) : EReal := Ideal.sqrt (∑ c : Fin 384, f c * f c)

/-- The normalised row: every lane divided by the norm, the norm held at or above the float 1e-12. -/
def normalize (f : Fin 384 → EReal) (c : Fin 384) : EReal :=
  Ideal.div (f c) (max (norm f) (Ideal.ofBits .f32 0x2B8CBCCC#32))

/-- THE OUTPUT ROW. -/
def out (u : Fin 128 → EReal) (a d : Fin 32 → Fin 128 → EReal) (ws wa wd : Fin 128 → Fin 128 → EReal)
    (bias : Fin 384 → EReal) : Fin 384 → EReal :=
  normalize (act u a d ws wa wd bias)

end Cert.NodeRow

end
-- ==== Proof.LibLanes.lean ====
/-
  Three readings at an index written by its coordinates, at the ideal instance where floats occur, generic in the extents.

  * Three [a, b] matrices joined along the lanes into one [a, c] matrix: lane l of the result, with l = k·b + l' and
    l' below b, is lane l' of piece k (the pieces' lane ranges lie end to end, each of width b).
  * The sum of an [a, b, c] block along its middle axis, read at (p, k): the sum over the middle coordinate j of the
    entries (p, j, k).
  * The product of an [m, k] by a [k, n] matrix accumulated into the zero matrix, read at (r, l): the sum over the
    contracted coordinate q of A(r, q) · B(q, l) — the zero it starts from adds nothing, and what is left is the plain
    product's entry.
-/
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.LibLanes

open Idealize.ShloMosaic Idealize.ShloMosaic.ValueIdx

section Join
variable {α : Type}

/-- The three pieces of a lane join as one family indexed by the piece's number. -/
abbrev pieces3 {a b : ℕ} (x0 x1 x2 : (⟨2, ![a, b]⟩ : Shape).Idx → α) : Fin 3 → (⟨2, ![a, b]⟩ : Shape).Idx → α :=
  ![x0, x1, x2]

/-- A coordinate off the joined axis is kept; there is only the row. -/
private theorem row_kept {a b c : ℕ} (r : Fin a) (l : Fin c) (l' : Fin b) :
    ∀ d : Fin (⟨2, ![a, b]⟩ : Shape).rank, d.cast (rfl : (⟨2, ![a, b]⟩ : Shape).rank = (⟨2, ![a, c]⟩ : Shape).rank) ≠ (1 : Fin 2) →
      ((ix2 r l' : (⟨2, ![a, b]⟩ : Shape).Idx) d).val = ((ix2 r l : (⟨2, ![a, c]⟩ : Shape).Idx) (d.cast rfl)).val := fun d hd => by
  match d, hd with
  | ⟨0, _⟩, _ => rfl
  | ⟨1, _⟩, hd => exact absurd rfl hd

/-- THE JOIN READ AT (r, l): piece k at (r, l'), where l = k·b + l'. -/
theorem join3_apply {a b c : ℕ} (x0 x1 x2 : (⟨2, ![a, b]⟩ : Shape).Idx → α)
    (h : Shape.Concatenates (([⟨⟨2, ![a, b]⟩, x0⟩, ⟨⟨2, ![a, b]⟩, x1⟩, ⟨⟨2, ![a, b]⟩, x2⟩] :
      List ((s : Shape) × (s.Idx → α))).map (·.1)) ⟨2, ![a, c]⟩ 1)
    (r : Fin a) (l : Fin c) (k : Fin 3) (l' : Fin b) (hl : k.val * b + l'.val = l.val) :
    concatenate ⟨2, ![a, c]⟩ 1 [⟨⟨2, ![a, b]⟩, x0⟩, ⟨⟨2, ![a, b]⟩, x1⟩, ⟨⟨2, ![a, b]⟩, x2⟩] h (ix2 r l)
      = pieces3 x0 x1 x2 k (ix2 r l') := by
  match k, hl with
  | ⟨0, _⟩, hl =>
    have hl0 : 0 * b + l'.val = l.val := hl
    exact concatenate_apply_piece (1 : Fin 2) _ h (ix2 r l) 0 (by show 0 < 3; omega) ⟨2, ![a, b]⟩ x0 rfl rfl 0 rfl (ix2 r l')
      (row_kept r l l') (by show 0 + l'.val = l.val; omega)
  | ⟨1, _⟩, hl =>
    have hl1 : 1 * b + l'.val = l.val := hl
    exact concatenate_apply_piece (1 : Fin 2) _ h (ix2 r l) 1 (by show 1 < 3; omega) ⟨2, ![a, b]⟩ x1 rfl rfl b (by simp) (ix2 r l')
      (row_kept r l l') (by show b + l'.val = l.val; omega)
  | ⟨2, _⟩, hl =>
    have hl2 : 2 * b + l'.val = l.val := hl
    exact concatenate_apply_piece (1 : Fin 2) _ h (ix2 r l) 2 (by show 2 < 3; omega) ⟨2, ![a, b]⟩ x2 rfl rfl (b + b) (by simp) (ix2 r l')
      (row_kept r l l') (by show b + b + l'.val = l.val; omega)

end Join

/-- THE MIDDLE-AXIS SUM READ AT (p, k): the sum over j of the entries (p, j, k). -/
theorem midSum_apply {a b c : ℕ} (X : FVec Ideal ⟨3, ![a, b, c]⟩ .f32)
    (h : (⟨3, ![a, b, c]⟩ : Shape).Reduces [1] ⟨2, ![a, c]⟩)
    (hφ : FKind.Formats .f32) (hacc : (0x00000000#32 : BitVec 32) = FKind.add.neutral .f32 hφ) (p : Fin a) (k : Fin c) :
    multiReduction .add [1] ⟨2, ![a, c]⟩ X 0x00000000#32 h hφ hacc (ix2 p k) = ∑ j : Fin b, X (ix3 p j k) := by
  refine (Ideal.multiReduction_add_single X _ h hφ hacc (ix2 p k)).trans ?_
  show ∑ j : Fin b, _ = _
  exact Finset.sum_congr rfl fun j _ => congrArg X (funext fun d => Fin.ext (by
    match d with
    | ⟨0, _⟩ => rfl
    | ⟨1, _⟩ => rfl
    | ⟨2, _⟩ => rfl))

/-- THE PRODUCT INTO THE ZERO MATRIX READ AT (r, l): the sum over q of A(r, q) · B(q, l). -/
theorem matmul_zero_apply {m k n : ℕ} {φ₁ φ₂ : FTy} (prec : Option ContractPrecision)
    (A : FVec Ideal ⟨2, ![m, k]⟩ φ₁) (B : FVec Ideal ⟨2, ![k, n]⟩ φ₂) (r : Fin m) (l : Fin n) :
    matmul (F := Ideal) (DotDims.plain m k n) prec A B (constant (F := Ideal) ⟨2, ![m, n]⟩ .f32 0x00000000#32) (ix2 r l)
      = ∑ q : Fin k, A (ix2 r q) * B (ix2 q l) :=
  ((Ideal.matmul_constant_zero_apply (DotDims.plain m k n) prec A B (ix2 r l)).trans
    (Ideal.dotGeneral_apply (DotDims.plain m k n) prec .single A B (ix2 r l)).symm).trans
    (StackMember.dotGeneral_plain_apply prec A B r l)

end Cert.LibLanes

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.KernelRow.lean ====
/-
  One entry of the block the kernel's body stores, as the layer's row function of the block's rows.

  At a grid point the body loads a 400-row block of the nodes' own embeddings (x0), of the two kinds of neighbour
  embeddings (x1, x2: 400 × 32 × 128), the three weight matrices whole (x3, x4, x5) and the bias as one row (x6), and
  stores a 400 × 384 block. Entry (p, c) of that block depends on row p of x0, x1, x2 only: it is lane c of
  `NodeRow.out` of those rows. The steps: the features before the rectifier (the three products joined along the
  lanes, plus the bias row repeated down the block) read at (p, c); the norm column read at row p as the square root of
  the row's sum of squares; and the final division by the norm column repeated along the lanes.
-/
import proofs.«163012_j841813590040_1_alg».proof.Proof.Gen.KernelIdeal.Frame
import proofs.«163012_j841813590040_1_alg».proof.Proof.NodeRow
import proofs.«163012_j841813590040_1_alg».proof.Proof.LibLanes
import proofs.«163012_j841813590040_1_alg».proof.Proof.LibLayout
import proofs.«163012_j841813590040_1_alg».proof.Proof.LibReduceRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- The features before the rectifier, over a whole block: the node's own rows times their weights, and each
    neighbour kind's mean rows times theirs, side by side along the lanes, plus the bias row on every row. -/
def feats (x0 : FVec Ideal S400x128 .f32) (x1 x2 : FVec Ideal S400x32x128 .f32) (x3 x4 x5 : FVec Ideal S128x128 .f32)
    (x6 : FVec Ideal S1x384 .f32) : FVec Ideal S400x384 .f32 :=
  addf
    (concatenate S400x384 1
      [⟨S400x128, matmul (F := Ideal) dot_S400x128_S128x128_S400x128_1_0_0_1_n_n none x0 x3 (constant (F := Ideal) S400x128 .f32 0x00000000#32)⟩,
       ⟨S400x128, matmul (F := Ideal) dot_S400x128_S128x128_S400x128_1_0_0_1_n_n none
          (divf (multiReduction (F := Ideal) .add [1] S400x128 x1 0x00000000#32 reduces_S400x32x128_S400x128 (.inl rfl) rfl)
            (broadcast S400x128 (Scalar.ofBits (F := Ideal) .f32 0x42000000#32))) x4 (constant (F := Ideal) S400x128 .f32 0x00000000#32)⟩,
       ⟨S400x128, matmul (F := Ideal) dot_S400x128_S128x128_S400x128_1_0_0_1_n_n none
          (divf (multiReduction (F := Ideal) .add [1] S400x128 x2 0x00000000#32 reduces_S400x32x128_S400x128 (.inl rfl) rfl)
            (broadcast S400x128 (Scalar.ofBits (F := Ideal) .f32 0x42000000#32))) x5 (constant (F := Ideal) S400x128 .f32 0x00000000#32)⟩]
      concatenates_S400x128_S400x128_S400x128_S400x384_d1)
    (broadcastTo S400x384 x6 broadcasts_S1x384_S400x384)

/-- The body's activated features are the rectifier applied entry by entry to `feats` (the casts of a block to its own
    shape change nothing). -/
theorem pay2_eq (x0 : FVec Ideal S400x128 .f32) (x1 x2 : FVec Ideal S400x32x128 .f32) (x3 x4 x5 : FVec Ideal S128x128 .f32)
    (x6 : FVec Ideal S1x384 .f32) :
    k0_pay2 (F := Ideal) x0 x1 x2 x3 x4 x5 x6 = fun i => NodeRow.leaky (feats x0 x1 x2 x3 x4 x5 x6 i) := by
  have h : k0_pay2 (F := Ideal) x0 x1 x2 x3 x4 x5 x6 = fun i => NodeRow.leaky (feats
      (shapeCast S400x128 x0 shapeCasts_S400x128_S400x128) (shapeCast S400x32x128 x1 shapeCasts_S400x32x128_S400x32x128)
      (shapeCast S400x32x128 x2 shapeCasts_S400x32x128_S400x32x128) x3 x4 x5 (shapeCast S1x384 x6 shapeCasts_S1x384_S1x384) i) := rfl
  rw [h]
  simp only [shapeCast_self]

/-- Piece k of the join at (p, n) is branch k of the row function at lane n: a product into the zero block is the sum
    over the contracted lane, and a neighbour kind's mean row is its 32 rows' sum divided by the float 32. -/
theorem pieces_apply (x0 : FVec Ideal S400x128 .f32) (x1 x2 : FVec Ideal S400x32x128 .f32) (x3 x4 x5 : FVec Ideal S128x128 .f32)
    (p : Fin 400) (k : Fin 3) (n : Fin 128) :
    LibLanes.pieces3
      (matmul (F := Ideal) dot_S400x128_S128x128_S400x128_1_0_0_1_n_n none x0 x3 (constant (F := Ideal) S400x128 .f32 0x00000000#32))
      (matmul (F := Ideal) dot_S400x128_S128x128_S400x128_1_0_0_1_n_n none
          (divf (multiReduction (F := Ideal) .add [1] S400x128 x1 0x00000000#32 reduces_S400x32x128_S400x128 (.inl rfl) rfl)
            (broadcast S400x128 (Scalar.ofBits (F := Ideal) .f32 0x42000000#32))) x4 (constant (F := Ideal) S400x128 .f32 0x00000000#32))
      (matmul (F := Ideal) dot_S400x128_S128x128_S400x128_1_0_0_1_n_n none
          (divf (multiReduction (F := Ideal) .add [1] S400x128 x2 0x00000000#32 reduces_S400x32x128_S400x128 (.inl rfl) rfl)
            (broadcast S400x128 (Scalar.ofBits (F := Ideal) .f32 0x42000000#32))) x5 (constant (F := Ideal) S400x128 .f32 0x00000000#32))
      k (ix2 p n)
    = NodeRow.branch (fun q => x0 (ix2 p q)) (fun j q => x1 (ix3 p j q)) (fun j q => x2 (ix3 p j q))
        (fun q l => x3 (ix2 q l)) (fun q l => x4 (ix2 q l)) (fun q l => x5 (ix2 q l)) k n := by
  match k with
  | ⟨0, _⟩ => exact LibLanes.matmul_zero_apply none x0 x3 p n
  | ⟨1, _⟩ =>
    refine (LibLanes.matmul_zero_apply none _ x4 p n).trans ?_
    refine Finset.sum_congr rfl fun q _ => congrArg (· * x4 (ix2 q n)) ?_
    exact congrArg (Ideal.div · (Ideal.ofBits .f32 0x42000000#32)) (LibLanes.midSum_apply x1 _ _ _ p q)
  | ⟨2, _⟩ =>
    refine (LibLanes.matmul_zero_apply none _ x5 p n).trans ?_
    refine Finset.sum_congr rfl fun q _ => congrArg (· * x5 (ix2 q n)) ?_
    exact congrArg (Ideal.div · (Ideal.ofBits .f32 0x42000000#32)) (LibLanes.midSum_apply x2 _ _ _ p q)

/-- THE FEATURES AT (p, c): branch ⌊c / 128⌋ of row p at lane c mod 128, plus the bias at c. -/
theorem feats_apply (x0 : FVec Ideal S400x128 .f32) (x1 x2 : FVec Ideal S400x32x128 .f32) (x3 x4 x5 : FVec Ideal S128x128 .f32)
    (x6 : FVec Ideal S1x384 .f32) (p : Fin 400) (c : Fin 384) :
    feats x0 x1 x2 x3 x4 x5 x6 (ix2 p c)
      = NodeRow.branch (fun q => x0 (ix2 p q)) (fun j q => x1 (ix3 p j q)) (fun j q => x2 (ix3 p j q))
          (fun q l => x3 (ix2 q l)) (fun q l => x4 (ix2 q l)) (fun q l => x5 (ix2 q l))
          ⟨c.val / 128, by have := c.isLt; omega⟩ ⟨c.val % 128, Nat.mod_lt _ (by norm_num)⟩
        + x6 (ix2 (0 : Fin 1) c) := by
  unfold feats
  refine congrArg₂ (· + ·) ?_ (broadcastTo_1b_ab_apply x6 _ p c)
  refine (LibLanes.join3_apply _ _ _ _ p c ⟨c.val / 128, by have := c.isLt; omega⟩ ⟨c.val % 128, Nat.mod_lt _ (by norm_num)⟩
    (by show c.val / 128 * 128 + c.val % 128 = c.val; omega)).trans ?_
  exact pieces_apply x0 x1 x2 x3 x4 x5 p _ _

/-- THE NORM COLUMN AT ROW p: the square root of the sum over the lanes of the squared activated features of row p. -/
theorem pay3_apply (x0 : FVec Ideal S400x128 .f32) (x1 x2 : FVec Ideal S400x32x128 .f32) (x3 x4 x5 : FVec Ideal S128x128 .f32)
    (x6 : FVec Ideal S1x384 .f32) (p : Fin 400) :
    k0_pay3 (F := Ideal) x0 x1 x2 x3 x4 x5 x6 (ix2 p (0 : Fin 1))
      = NodeRow.norm (fun c => k0_pay2 (F := Ideal) x0 x1 x2 x3 x4 x5 x6 (ix2 p c)) := by
  unfold k0_pay3
  show Ideal.sqrt (shapeCast S400x1 _ shapeCasts_S400_S400x1 (ix2 p (0 : Fin 1))) = Ideal.sqrt _
  refine congrArg Ideal.sqrt ?_
  refine (LibLayout.shapeCast_a_a1_apply _ _ p 0).trans ?_
  exact LibReduceRead.rowSum_apply _ _ _ _ p

/-- THE STORED VALUE AT (p, c): the activated feature divided by the row's norm, the norm held at or above the small float. -/
theorem pay1_apply (v27 : FVec Ideal S400x384 .f32) (v31 : FVec Ideal S400x1 .f32) (e : Ideal .f32) (p : Fin 400) (c : Fin 384) :
    k0_pay1 (F := Ideal) v27 v31 e (ix2 p c) = Ideal.div (v27 (ix2 p c)) (max (v31 (ix2 p (0 : Fin 1))) e) := by
  unfold k0_pay1
  show Ideal.div (v27 (ix2 p c)) (broadcastTo S400x384 _ broadcasts_S400x1_S400x384 (ix2 p c)) = _
  exact congrArg (Ideal.div (v27 (ix2 p c))) (LibLayout.broadcastTo_a1_ab_apply _ _ p c)

theorem hz2 : (![0, 0] : Fin 2 → Nat) = fun _ => 0 := funext fun a => by fin_cases a <;> rfl
theorem hz3 : (![0, 0, 0] : Fin 3 → Nat) = fun _ => 0 := funext fun a => by fin_cases a <;> rfl

/-- ENTRY (p, c) OF THE STORED BLOCK is lane c of the layer's row function of row p of the loaded blocks. -/
theorem out_apply (x0 : FVec Ideal S400x128 .f32) (x1 x2 : FVec Ideal S400x32x128 .f32) (x3 x4 x5 : FVec Ideal S128x128 .f32)
    (x6 : FVec Ideal S1x384 .f32) (p : Fin 400) (c : Fin 384) :
    out0_7 (F := Ideal) x0 x1 x2 x3 x4 x5 x6 (ix2 p c)
      = NodeRow.out (fun q => x0 (ix2 p q)) (fun j q => x1 (ix3 p j q)) (fun j q => x2 (ix3 p j q))
          (fun q l => x3 (ix2 q l)) (fun q l => x4 (ix2 q l)) (fun q l => x5 (ix2 q l)) (fun l => x6 (ix2 (0 : Fin 1) l)) c := by
  unfold out0_7
  rw [View.canon_unit_zero hz2]
  simp only [View.ld_unit_zero (S := S400x128) hz2, View.ld_unit_zero (S := S400x32x128) hz3,
    View.ld_unit_zero (S := S128x128) hz2, View.ld_unit_zero (S := S1x384) hz2]
  rw [pay1_apply, pay3_apply]
  simp only [pay2_eq, feats_apply]
  rfl

end Cert.KernelIdeal.Row

end
-- ==== Proof.KernelArray.lean ====
/-
  From the blocks the grid points write back to the whole result array.

  The grid has 125 points; point t stages rows 400·t … 400·t + 399 of the three gathered arrays (whole in their other
  axes), the three weight matrices and the bias row whole, and writes back rows 400·t … 400·t + 399 of the result. So an
  element (p, ·) of a moving block sits at row 400·t + p of its array, and an element of a whole-array block sits where
  its own coordinates say. With the block entry of `Row.out_apply` this makes what point t writes back block t of ONE
  function `G` of the arrays the region finds: entry (r, c) of `G` is lane c of the layer's row function of row r. The
  125 blocks tile the 50000 rows (row r is in block r / 400), so after the run the result array is `G`.
-/
import proofs.«163012_j841813590040_1_alg».proof.Proof.Gen.KernelIdeal.Value
import proofs.«163012_j841813590040_1_alg».proof.Proof.KernelRow
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row r of the result as the layer's row function of row r of the gathered arrays, the weights and the bias row. -/
def Grow (xs : FVec Ideal S50000x128 .f32) (xa xd : FVec Ideal S50000x32x128 .f32) (ws wa wd : FVec Ideal S128x128 .f32)
    (b : FVec Ideal S1x384 .f32) (r : Fin 50000) (c : Fin 384) : EReal :=
  NodeRow.out (fun q => xs (ix2 r q)) (fun j q => xa (ix3 r j q)) (fun j q => xd (ix3 r j q))
    (fun q l => ws (ix2 q l)) (fun q l => wa (ix2 q l)) (fun q l => wd (ix2 q l)) (fun l => b (ix2 (0 : Fin 1) l)) c

/-- THE RESULT ARRAY as one function of the arrays the region finds, index by index. -/
def G (xs : FVec Ideal S50000x128 .f32) (xa xd : FVec Ideal S50000x32x128 .f32) (ws wa wd : FVec Ideal S128x128 .f32)
    (b : FVec Ideal S1x384 .f32) : FVec Ideal S50000x384 .f32 :=
  fun i => Grow xs xa xd ws wa wd b ⟨(i 0).val, idx2_lt0 i⟩ ⟨(i 1).val, idx2_lt1 i⟩

/-- `G` at (r, l) is the row function of row r at lane l. -/
theorem G_apply (xs : FVec Ideal S50000x128 .f32) (xa xd : FVec Ideal S50000x32x128 .f32) (ws wa wd : FVec Ideal S128x128 .f32)
    (b : FVec Ideal S1x384 .f32) (r : Fin 50000) (l : Fin 384) :
    G xs xa xd ws wa wd b (ix2 r l) = Grow xs xa xd ws wa wd b r l := rfl

/-- The row function depends on its seven arguments only through their values. -/
theorem out_congr {u u' : Fin 128 → EReal} {a a' d d' : Fin 32 → Fin 128 → EReal} {ws ws' wa wa' wd wd' : Fin 128 → Fin 128 → EReal}
    {b b' : Fin 384 → EReal} (hu : u = u') (ha : a = a') (hd : d = d') (hws : ws = ws') (hwa : wa = wa') (hwd : wd = wd')
    (hb : b = b') (c : Fin 384) : NodeRow.out u a d ws wa wd b c = NodeRow.out u' a' d' ws' wa' wd' b' c := by
  subst hu ha hd hws hwa hwd hb; rfl

/-- The printed index maps, decided over the 125 points: the three gathered arrays and the result move by one block of
    rows per point, on their other axes and for the weights and the bias the block index is zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A point's number is below 125, so its last row is below 50000. -/
theorem row_lt (t : Fin cfg0.N) (p : Fin 400) : 400 * t.val + p.val < 50000 := by
  have ht := t.isLt
  have hN : cfg0.N = 125 := N_0
  have hp := p.isLt
  omega

/-- The row of the arrays that row p of point t's moving blocks is. -/
abbrev rowAt (t : Fin cfg0.N) (p : Fin 400) : Fin 50000 := ⟨400 * t.val + p.val, row_lt t p⟩

/-- Row p, lane q of the nodes' own block at point t is row 400·t + p of the gathered array. -/
theorem blk0_apply (c : Dev nD) (t : Fin cfg0.N) (p : Fin 400) (q : Fin 128) :
    (iblk m c 0 t : FVec Ideal S400x128 .f32) (ix2 p q) = (V m c main_v6 : FVec Ideal S50000x128 .f32) (ix2 (rowAt t p) q) := by
  obtain ⟨e0, e1, -⟩ := idx_facts t
  show V m c main_v6 (((cfg0.win 0).blk t).view.emb (ix2 p q)) = V m c main_v6 (ix2 (rowAt t p) q)
  refine congrArg (V m c main_v6) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 128 + 1 * q.val = q.val; rw [e1]; omega

/-- The same for the first kind of neighbour rows … -/
theorem blk1_apply (c : Dev nD) (t : Fin cfg0.N) (p : Fin 400) (j : Fin 32) (q : Fin 128) :
    (iblk m c 1 t : FVec Ideal S400x32x128 .f32) (ix3 p j q) = (V m c main_v13 : FVec Ideal S50000x32x128 .f32) (ix3 (rowAt t p) j q) := by
  obtain ⟨-, -, e0, e1, e2, -⟩ := idx_facts t
  show V m c main_v13 (((cfg0.win 1).blk t).view.emb (ix3 p j q)) = V m c main_v13 (ix3 (rowAt t p) j q)
  refine congrArg (V m c main_v13) (funext fun a => Fin.ext ?_)
  match a with
  | ⟨0, _⟩ => show win0_1.index t (0 : Fin 3) * 400 + 1 * p.val = 400 * t.val + p.val; rw [e0]; omega
  | ⟨1, _⟩ => show win0_1.index t (1 : Fin 3) * 32 + 1 * j.val = j.val; rw [e1]; omega
  | ⟨2, _⟩ => show win0_1.index t (2 : Fin 3) * 128 + 1 * q.val = q.val; rw [e2]; omega

/-- … and the second. -/
theorem blk2_apply (c : Dev nD) (t : Fin cfg0.N) (p : Fin 400) (j : Fin 32) (q : Fin 128) :
    (iblk m c 2 t : FVec Ideal S400x32x128 .f32) (ix3 p j q) = (V m c main_v20 : FVec Ideal S50000x32x128 .f32) (ix3 (rowAt t p) j q) := by
  obtain ⟨-, -, -, -, -, e0, e1, e2, -⟩ := idx_facts t
  show V m c main_v20 (((cfg0.win 2).blk t).view.emb (ix3 p j q)) = V m c main_v20 (ix3 (rowAt t p) j q)
  refine congrArg (V m c main_v20) (funext fun a => Fin.ext ?_)
  match a with
  | ⟨0, _⟩ => show win0_2.index t (0 : Fin 3) * 400 + 1 * p.val = 400 * t.val + p.val; rw [e0]; omega
  | ⟨1, _⟩ => show win0_2.index t (1 : Fin 3) * 32 + 1 * j.val = j.val; rw [e1]; omega
  | ⟨2, _⟩ => show win0_2.index t (2 : Fin 3) * 128 + 1 * q.val = q.val; rw [e2]; omega

/-- A weight matrix's block is the matrix, at every point. -/
theorem blk3_apply (c : Dev nD) (t : Fin cfg0.N) (q l : Fin 128) :
    (iblk m c 3 t : FVec Ideal S128x128 .f32) (ix2 q l) = (V m c main_arg4 : FVec Ideal S128x128 .f32) (ix2 q l) := by
  obtain ⟨-, -, -, -, -, -, -, -, e0, e1, -⟩ := idx_facts t
  show V m c main_arg4 (((cfg0.win 3).blk t).view.emb (ix2 q l)) = V m c main_arg4 (ix2 q l)
  refine congrArg (V m c main_arg4) (funext fun a => Fin.ext ?_)
  match a with
  | ⟨0, _⟩ => show win0_3.index t (0 : Fin 2) * 128 + 1 * q.val = q.val; rw [e0]; omega
  | ⟨1, _⟩ => show win0_3.index t (1 : Fin 2) * 128 + 1 * l.val = l.val; rw [e1]; omega
theorem blk4_apply (c : Dev nD) (t : Fin cfg0.N) (q l : Fin 128) :
    (iblk m c 4 t : FVec Ideal S128x128 .f32) (ix2 q l) = (V m c main_arg5 : FVec Ideal S128x128 .f32) (ix2 q l) := by
  obtain ⟨-, -, -, -, -, -, -, -, -, -, e0, e1, -⟩ := idx_facts t
  show V m c main_arg5 (((cfg0.win 4).blk t).view.emb (ix2 q l)) = V m c main_arg5 (ix2 q l)
  refine congrArg (V m c main_arg5) (funext fun a => Fin.ext ?_)
  match a with
  | ⟨0, _⟩ => show win0_4.index t (0 : Fin 2) * 128 + 1 * q.val = q.val; rw [e0]; omega
  | ⟨1, _⟩ => show win0_4.index t (1 : Fin 2) * 128 + 1 * l.val = l.val; rw [e1]; omega
theorem blk5_apply (c : Dev nD) (t : Fin cfg0.N) (q l : Fin 128) :
    (iblk m c 5 t : FVec Ideal S128x128 .f32) (ix2 q l) = (V m c main_arg6 : FVec Ideal S128x128 .f32) (ix2 q l) := by
  obtain ⟨-, -, -, -, -, -, -, -, -, -, -, -, e0, e1, -⟩ := idx_facts t
  show V m c main_arg6 (((cfg0.win 5).blk t).view.emb (ix2 q l)) = V m c main_arg6 (ix2 q l)
  refine congrArg (V m c main_arg6) (funext fun a => Fin.ext ?_)
  match a with
  | ⟨0, _⟩ => show win0_5.index t (0 : Fin 2) * 128 + 1 * q.val = q.val; rw [e0]; omega
  | ⟨1, _⟩ => show win0_5.index t (1 : Fin 2) * 128 + 1 * l.val = l.val; rw [e1]; omega

/-- The bias row's block is the bias row, at every point. -/
theorem blk6_apply (c : Dev nD) (t : Fin cfg0.N) (l : Fin 384) :
    (iblk m c 6 t : FVec Ideal S1x384 .f32) (ix2 (0 : Fin 1) l) = (V m c main_v21 : FVec Ideal S1x384 .f32) (ix2 (0 : Fin 1) l) := by
  obtain ⟨-, -, -, -, -, -, -, -, -, -, -, -, -, -, e0, e1, -⟩ := idx_facts t
  show V m c main_v21 (((cfg0.win 6).blk t).view.emb (ix2 (0 : Fin 1) l)) = V m c main_v21 (ix2 (0 : Fin 1) l)
  refine congrArg (V m c main_v21) (funext fun a => Fin.ext ?_)
  match a with
  | ⟨0, _⟩ => show win0_6.index t (0 : Fin 2) * 1 + 1 * 0 = 0; rw [e0]
  | ⟨1, _⟩ => show win0_6.index t (1 : Fin 2) * 384 + 1 * l.val = l.val; rw [e1]; omega

/-- WHAT POINT t WRITES BACK is block t of `G` of the arrays as the region finds them. -/
theorem flushed_eq (c : Dev nD) (t : Fin cfg0.N) :
    (dats m 0 c).flushed 7 t = ((cfg0.win 7).blk t).view.read (Elt Ideal) (G (V m c main_v6) (V m c main_v13) (V m c main_v20) (V m c main_arg4) (V m c main_arg5) (V m c main_arg6) (V m c main_v21)) := by
  rw [flushed7]
  obtain ⟨-, -, -, -, -, -, -, -, -, -, -, -, -, -, -, -, e0, e1⟩ := idx_facts t
  funext y
  obtain ⟨p, l, rfl⟩ : ∃ (p : Fin 400) (l : Fin 384), y = ix2 p l := ⟨y 0, y 1, eq_ix2 y⟩
  -- writing back keeps a block's entries at their own coordinates, and a block of an array, read at an entry, is the
  -- array where that entry sits: both hold of any contents
  have hL : ∀ X : S400x384.Idx → EReal, (cfg0.win 7).cut (grid0.coords t) X (ix2 p l) = X (ix2 p l) := fun X => rfl
  have hR : ∀ Gf : S50000x384.Idx → EReal, ((cfg0.win 7).blk t).view.read (Elt Ideal) Gf (ix2 p l)
      = Gf (((cfg0.win 7).blk t).view.emb (ix2 p l)) := fun Gf => rfl
  refine (hL _).trans (Eq.trans ?_ (hR _).symm)
  refine (Row.out_apply (iblk m c 0 t) (iblk m c 1 t) (iblk m c 2 t) (iblk m c 3 t) (iblk m c 4 t) (iblk m c 5 t) (iblk m c 6 t) p l).trans ?_
  have hemb : ((cfg0.win 7).blk t).view.emb (ix2 p l) = (ix2 (rowAt t p) l : S50000x384.Idx) := funext fun a => Fin.ext (by
    match a with
    | ⟨0, _⟩ => show win0_7.index t (0 : Fin 2) * 400 + 1 * p.val = 400 * t.val + p.val; rw [e0]; omega
    | ⟨1, _⟩ => show win0_7.index t (1 : Fin 2) * 384 + 1 * l.val = l.val; rw [e1]; omega)
  rw [hemb, G_apply]
  unfold Grow
  exact out_congr (funext fun q => blk0_apply m c t p q) (funext fun j => funext fun q => blk1_apply m c t p j q)
    (funext fun j => funext fun q => blk2_apply m c t p j q) (funext fun q => funext fun l' => blk3_apply m c t q l')
    (funext fun q => funext fun l' => blk4_apply m c t q l') (funext fun q => funext fun l' => blk5_apply m c t q l')
    (funext fun l' => blk6_apply m c t l') l

/-- An index of the result is in point t's block iff each coordinate is in the block's range on its axis. -/
theorem mem_blk (t : Fin cfg0.N) (i : S50000x384.Idx) :
    i ∈ ((cfg0.win 7).blk t).view.set ↔ ∀ a : Fin 2, win0_7.index t a * S400x384.size a ≤ (i a).val ∧ (i a).val < win0_7.index t a * S400x384.size a + S400x384.size a := by
  show i ∈ ((View.whole main_v22).slice (win0_7.rect t)).set ↔ _
  rw [View.set_slice_whole, Rect.mem_set_unit]
  exact Iff.rfl

/-- THE RESULT ARRAY after the run is `G`: row r is written by point r / 400. -/
theorem final (c : Dev nD) : (dats m 0 c).arrAt 7 cfg0.N = G (V m c main_v6) (V m c main_v13) (V m c main_v20) (V m c main_arg4) (V m c main_arg5) (V m c main_arg6) (V m c main_v21) :=
  (dats m 0 c).arrAt_eq_of_cover 7 (G (V m c main_v6) (V m c main_v13) (V m c main_v20) (V m c main_arg4) (V m c main_arg5) (V m c main_arg6) (V m c main_v21)) (fun t _ => flushed_eq m c t) fun i => by
    have hi0 : (i 0).val < 50000 := (i 0).isLt
    have hi1 : (i 1).val < 384 := (i 1).isLt
    have hN : cfg0.N = 125 := N_0
    refine ⟨⟨(i 0).val / 400, by rw [hN]; omega⟩, flush0_7 _, ?_⟩
    obtain ⟨-, -, -, -, -, -, -, -, -, -, -, -, -, -, -, -, e0, e1⟩ := idx_facts ⟨(i 0).val / 400, by rw [hN]; omega⟩
    rw [mem_blk]
    intro a
    match a with
    | ⟨0, _⟩ =>
      show win0_7.index _ (0 : Fin 2) * 400 ≤ (i 0).val ∧ (i 0).val < win0_7.index _ (0 : Fin 2) * 400 + 400
      rw [e0]; show (i 0).val / 400 * 400 ≤ (i 0).val ∧ (i 0).val < (i 0).val / 400 * 400 + 400; omega
    | ⟨1, _⟩ =>
      show win0_7.index _ (1 : Fin 2) * 384 ≤ (i 1).val ∧ (i 1).val < win0_7.index _ (1 : Fin 2) * 384 + 384
      rw [e1]; omega

/-- THE RUN, READ: the result array ends at `G` of the arrays the region finds, the arguments unchanged. -/
theorem run : θ_run defs (onTc (τ := τ) (main (F := Ideal))) ⟨m, fun _ => 0, ρ⟩ fun r => ∀ c : Dev nD,
      r.2.mem ((c : Thread nD τ).loc main_v22) = G (V m c main_v6) (V m c main_v13) (V m c main_v20) (V m c main_arg4) (V m c main_arg5) (V m c main_arg6) (V m c main_v21)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.RefRow.lean ====
/-
  One entry of the reference's result, as the layer's row function of the gathered rows.

  The reference gathers the nodes' own embedding rows ([50000, 128]) and the two kinds of neighbour rows
  ([50000, 32, 128]) out of the table, and everything after the gathers treats each node by itself: entry (r, c) of the
  result is lane c of `NodeRow.out` of row r of the three gathered arrays, the weights and the bias. The gathers
  enter only through the arrays they produce. Each step reads one operation at an index: a product as the sum over the contracted lane,
  a mean as the 32 rows' sum (started from the float zero, which adds nothing) over the float 32, the three products
  joined along the lanes, the bias repeated down the rows, the rectifier entry by entry, the norm as the square root
  of the row's sum of squares, and the division by the norm repeated along the lanes.
-/
import proofs.«163012_j841813590040_1_alg».proof.Proof.Gen.ReferenceIdeal.Read
import proofs.«163012_j841813590040_1_alg».proof.Proof.NodeRow
import proofs.«163012_j841813590040_1_alg».proof.Proof.LibLanes
import Idealize.ShloMosaic.Lib.Pipeline.Value
import Idealize.ShloMosaic.Lib.ValueIdx
import Idealize.ShloMosaic.PureOps.Ideal.Laws

noncomputable section

open scoped BigOperators

namespace Cert.ReferenceIdeal.Row

open Cert.ReferenceIdeal Cert.ReferenceIdeal.Read Idealize.ShloMosaic Idealize.ShloMosaic.ValueIdx

/-- Rows of a matrix and of a rank-3 array, and lanes of a weight matrix, named by coordinates. -/
private theorem e2 {n0 n1 : ℕ} (i : (⟨2, ![n0, n1]⟩ : Shape).Idx) (a : Fin n0) (b : Fin n1) (h0 : (i 0).val = a.val) (h1 : (i 1).val = b.val) :
    i = ix2 a b := funext fun d => Fin.ext (by match d with | ⟨0, _⟩ => exact h0 | ⟨1, _⟩ => exact h1)
private theorem e3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) :
    i = ix3 a b c := funext fun d => Fin.ext (by match d with | ⟨0, _⟩ => exact h0 | ⟨1, _⟩ => exact h1 | ⟨2, _⟩ => exact h2)

/-- A neighbour kind's mean row at lane q: the 32 gathered rows' sum over the float 32 (first kind). -/
theorem mean_a_apply (x1 : (⟨S50000x32, .i32⟩ : BufTy).Contents (Elt Ideal)) (x3 : (⟨S100000x128, .f32⟩ : BufTy).Contents (Elt Ideal))
    (r : Fin 50000) (q : Fin 128) :
    val_main_v17 (F := Ideal) x1 x3 (ix2 r q) = NodeRow.mean32 (fun j q => val_main_v14 (F := Ideal) x1 x3 (ix3 r j q)) q := by
  rw [val_main_v17_apply, val_main_v15_apply, val_main_v16_apply]
  show Ideal.div (Ideal.ofBits .f32 0x00000000#32 + ∑ j : Fin 32, val_main_v14 (F := Ideal) x1 x3 (idx_main_v15 (ix2 r q) j))
      (Ideal.ofBits .f32 0x42000000#32) = Ideal.div (∑ j : Fin 32, val_main_v14 (F := Ideal) x1 x3 (ix3 r j q)) (Ideal.ofBits .f32 0x42000000#32)
  rw [Ideal.ofBits_zero_f32, zero_add]
  exact congrArg (Ideal.div · (Ideal.ofBits .f32 0x42000000#32))
    (Finset.sum_congr rfl fun j _ => congrArg (val_main_v14 (F := Ideal) x1 x3) (e3 _ r j q rfl rfl rfl))

/-- The same for the second kind of neighbours. -/
theorem mean_d_apply (x2 : (⟨S50000x32, .i32⟩ : BufTy).Contents (Elt Ideal)) (x3 : (⟨S100000x128, .f32⟩ : BufTy).Contents (Elt Ideal))
    (r : Fin 50000) (q : Fin 128) :
    val_main_v28 (F := Ideal) x2 x3 (ix2 r q) = NodeRow.mean32 (fun j q => val_main_v25 (F := Ideal) x2 x3 (ix3 r j q)) q := by
  rw [val_main_v28_apply, val_main_v26_apply, val_main_v27_apply]
  show Ideal.div (Ideal.ofBits .f32 0x00000000#32 + ∑ j : Fin 32, val_main_v25 (F := Ideal) x2 x3 (idx_main_v26 (ix2 r q) j))
      (Ideal.ofBits .f32 0x42000000#32) = Ideal.div (∑ j : Fin 32, val_main_v25 (F := Ideal) x2 x3 (ix3 r j q)) (Ideal.ofBits .f32 0x42000000#32)
  rw [Ideal.ofBits_zero_f32, zero_add]
  exact congrArg (Ideal.div · (Ideal.ofBits .f32 0x42000000#32))
    (Finset.sum_congr rfl fun j _ => congrArg (val_main_v25 (F := Ideal) x2 x3) (e3 _ r j q rfl rfl rfl))

/-- The node's own projected row at lane n. -/
theorem proj_self_apply (x0 : (⟨S50000, .i32⟩ : BufTy).Contents (Elt Ideal)) (x3 : (⟨S100000x128, .f32⟩ : BufTy).Contents (Elt Ideal))
    (x4 : (⟨S128x128, .f32⟩ : BufTy).Contents (Elt Ideal)) (r : Fin 50000) (n : Fin 128) :
    val_main_v7 (F := Ideal) x0 x3 x4 (ix2 r n)
      = NodeRow.proj (fun q => val_main_v6 (F := Ideal) x0 x3 (ix2 r q)) (fun q l => x4 (ix2 q l)) n := by
  unfold NodeRow.proj
  refine (val_main_v7_apply x0 x3 x4 (ix2 r n)).trans (Finset.sum_congr rfl fun q _ => ?_)
  exact congrArg₂ (· * ·) (congrArg (val_main_v6 (F := Ideal) x0 x3) (e2 _ r q rfl rfl)) (congrArg x4 (e2 _ q n rfl rfl))

/-- The first neighbour kind's projected mean row at lane n. -/
theorem proj_a_apply (x1 : (⟨S50000x32, .i32⟩ : BufTy).Contents (Elt Ideal)) (x3 : (⟨S100000x128, .f32⟩ : BufTy).Contents (Elt Ideal))
    (x5 : (⟨S128x128, .f32⟩ : BufTy).Contents (Elt Ideal)) (r : Fin 50000) (n : Fin 128) :
    val_main_v18 (F := Ideal) x1 x3 x5 (ix2 r n)
      = NodeRow.proj (NodeRow.mean32 (fun j q => val_main_v14 (F := Ideal) x1 x3 (ix3 r j q))) (fun q l => x5 (ix2 q l)) n := by
  unfold NodeRow.proj
  refine (val_main_v18_apply x1 x3 x5 (ix2 r n)).trans (Finset.sum_congr rfl fun q _ => ?_)
  refine congrArg₂ (· * ·) ?_ (congrArg x5 (e2 _ q n rfl rfl))
  rw [e2 (lidx_main_v18 (ix2 r n) q) r q rfl rfl]
  exact mean_a_apply x1 x3 r q

/-- The second neighbour kind's projected mean row at lane n. -/
theorem proj_d_apply (x2 : (⟨S50000x32, .i32⟩ : BufTy).Contents (Elt Ideal)) (x3 : (⟨S100000x128, .f32⟩ : BufTy).Contents (Elt Ideal))
    (x6 : (⟨S128x128, .f32⟩ : BufTy).Contents (Elt Ideal)) (r : Fin 50000) (n : Fin 128) :
    val_main_v29 (F := Ideal) x2 x3 x6 (ix2 r n)
      = NodeRow.proj (NodeRow.mean32 (fun j q => val_main_v25 (F := Ideal) x2 x3 (ix3 r j q))) (fun q l => x6 (ix2 q l)) n := by
  unfold NodeRow.proj
  refine (val_main_v29_apply x2 x3 x6 (ix2 r n)).trans (Finset.sum_congr rfl fun q _ => ?_)
  refine congrArg₂ (· * ·) ?_ (congrArg x6 (e2 _ q n rfl rfl))
  rw [e2 (lidx_main_v29 (ix2 r n) q) r q rfl rfl]
  exact mean_d_apply x2 x3 r q

/-- Piece k of the reference's join at (r, n) is branch k of the row function at lane n. -/
theorem pieces_apply (x0 : (⟨S50000, .i32⟩ : BufTy).Contents (Elt Ideal)) (x1 x2 : (⟨S50000x32, .i32⟩ : BufTy).Contents (Elt Ideal)) (x3 : (⟨S100000x128, .f32⟩ : BufTy).Contents (Elt Ideal)) (x4 x5 x6 : (⟨S128x128, .f32⟩ : BufTy).Contents (Elt Ideal)) (r : Fin 50000) (k : Fin 3) (n : Fin 128) :
    LibLanes.pieces3 (val_main_v7 (F := Ideal) x0 x3 x4) (val_main_v18 (F := Ideal) x1 x3 x5) (val_main_v29 (F := Ideal) x2 x3 x6) k (ix2 r n)
      = NodeRow.branch (fun q => val_main_v6 (F := Ideal) x0 x3 (ix2 r q)) (fun j q => val_main_v14 (F := Ideal) x1 x3 (ix3 r j q))
          (fun j q => val_main_v25 (F := Ideal) x2 x3 (ix3 r j q)) (fun q l => x4 (ix2 q l)) (fun q l => x5 (ix2 q l)) (fun q l => x6 (ix2 q l)) k n := by
  match k with
  | ⟨0, _⟩ => exact proj_self_apply x0 x3 x4 r n
  | ⟨1, _⟩ => exact proj_a_apply x1 x3 x5 r n
  | ⟨2, _⟩ => exact proj_d_apply x2 x3 x6 r n

/-- THE FEATURES AT (r, c): branch ⌊c / 128⌋ of row r at lane c mod 128, plus the bias at c. -/
theorem feats_apply (x0 : (⟨S50000, .i32⟩ : BufTy).Contents (Elt Ideal)) (x1 x2 : (⟨S50000x32, .i32⟩ : BufTy).Contents (Elt Ideal)) (x3 : (⟨S100000x128, .f32⟩ : BufTy).Contents (Elt Ideal)) (x4 x5 x6 : (⟨S128x128, .f32⟩ : BufTy).Contents (Elt Ideal)) (x7 : (⟨S384, .f32⟩ : BufTy).Contents (Elt Ideal)) (r : Fin 50000) (c : Fin 384) :
    val_main_v33 (F := Ideal) x0 x1 x2 x3 x4 x5 x6 x7 (ix2 r c)
      = NodeRow.branch (fun q => val_main_v6 (F := Ideal) x0 x3 (ix2 r q)) (fun j q => val_main_v14 (F := Ideal) x1 x3 (ix3 r j q))
          (fun j q => val_main_v25 (F := Ideal) x2 x3 (ix3 r j q)) (fun q l => x4 (ix2 q l)) (fun q l => x5 (ix2 q l)) (fun q l => x6 (ix2 q l))
          ⟨c.val / 128, by have := c.isLt; omega⟩ ⟨c.val % 128, Nat.mod_lt _ (by norm_num)⟩
        + x7 (ix1 c) := by
  rw [val_main_v33_apply]
  refine congrArg₂ (· + ·) ?_ ?_
  · unfold val_main_v30
    refine (LibLanes.join3_apply _ _ _ _ r c ⟨c.val / 128, by have := c.isLt; omega⟩ ⟨c.val % 128, Nat.mod_lt _ (by norm_num)⟩
      (by show c.val / 128 * 128 + c.val % 128 = c.val; omega)).trans ?_
    exact pieces_apply x0 x1 x2 x3 x4 x5 x6 r _ _
  · rw [val_main_v32_apply, val_main_v31_apply]
    exact congrArg x7 (funext fun a => Fin.ext (by match a with | ⟨0, _⟩ => rfl))

/-- The rectifier, entry by entry. -/
theorem act_apply (x0 : (⟨S50000, .i32⟩ : BufTy).Contents (Elt Ideal)) (x1 x2 : (⟨S50000x32, .i32⟩ : BufTy).Contents (Elt Ideal)) (x3 : (⟨S100000x128, .f32⟩ : BufTy).Contents (Elt Ideal)) (x4 x5 x6 : (⟨S128x128, .f32⟩ : BufTy).Contents (Elt Ideal)) (x7 : (⟨S384, .f32⟩ : BufTy).Contents (Elt Ideal)) (i : S50000x384.Idx) :
    val_main_v38 (F := Ideal) x0 x1 x2 x3 x4 x5 x6 x7 i = NodeRow.leaky (val_main_v33 (F := Ideal) x0 x1 x2 x3 x4 x5 x6 x7 i) := by
  rw [val_main_v38_apply, val_main_v35_apply, val_main_v37_apply, val_main_v34_apply, val_main_v36_apply]
  rfl

/-- THE NORM COLUMN AT ROW r, held at or above the small float. -/
theorem norm_apply (x0 : (⟨S50000, .i32⟩ : BufTy).Contents (Elt Ideal)) (x1 x2 : (⟨S50000x32, .i32⟩ : BufTy).Contents (Elt Ideal)) (x3 : (⟨S100000x128, .f32⟩ : BufTy).Contents (Elt Ideal)) (x4 x5 x6 : (⟨S128x128, .f32⟩ : BufTy).Contents (Elt Ideal)) (x7 : (⟨S384, .f32⟩ : BufTy).Contents (Elt Ideal)) (r : Fin 50000) :
    val_main_v41 (F := Ideal) x0 x1 x2 x3 x4 x5 x6 x7 (ix2 r (0 : Fin 1))
      = max (NodeRow.norm (fun c => val_main_v38 (F := Ideal) x0 x1 x2 x3 x4 x5 x6 x7 (ix2 r c))) (Ideal.ofBits .f32 0x2B8CBCCC#32) := by
  rw [val_main_v41_apply, val_main_v39_apply, val_main_call1_v2_apply, val_main_call1_v1_apply, val_main_v40_apply]
  show max (Ideal.sqrt (Ideal.ofBits .f32 0x00000000#32 + ∑ k : Fin 384, val_main_call1_v0 (F := Ideal) x0 x1 x2 x3 x4 x5 x6 x7
      (idx_main_call1_v1 (idx_main_call1_v2 (ix2 r (0 : Fin 1))) k))) (Ideal.ofBits .f32 0x2B8CBCCC#32) = _
  rw [Ideal.ofBits_zero_f32, zero_add]
  refine congrArg (fun s => max (Ideal.sqrt s) (Ideal.ofBits .f32 0x2B8CBCCC#32)) (Finset.sum_congr rfl fun k _ => ?_)
  rw [e2 (idx_main_call1_v1 (idx_main_call1_v2 (ix2 r (0 : Fin 1))) k) r k rfl rfl]
  rfl

/-- ENTRY (r, c) OF THE REFERENCE'S RESULT is lane c of the layer's row function of row r of the gathered arrays. -/
theorem out_apply (x0 : (⟨S50000, .i32⟩ : BufTy).Contents (Elt Ideal)) (x1 x2 : (⟨S50000x32, .i32⟩ : BufTy).Contents (Elt Ideal)) (x3 : (⟨S100000x128, .f32⟩ : BufTy).Contents (Elt Ideal)) (x4 x5 x6 : (⟨S128x128, .f32⟩ : BufTy).Contents (Elt Ideal)) (x7 : (⟨S384, .f32⟩ : BufTy).Contents (Elt Ideal)) (r : Fin 50000) (c : Fin 384) :
    val_main_v43 (F := Ideal) x0 x1 x2 x3 x4 x5 x6 x7 (ix2 r c)
      = NodeRow.out (fun q => val_main_v6 (F := Ideal) x0 x3 (ix2 r q)) (fun j q => val_main_v14 (F := Ideal) x1 x3 (ix3 r j q))
          (fun j q => val_main_v25 (F := Ideal) x2 x3 (ix3 r j q)) (fun q l => x4 (ix2 q l)) (fun q l => x5 (ix2 q l)) (fun q l => x6 (ix2 q l))
          (fun l => x7 (ix1 l)) c := by
  rw [val_main_v43_apply, val_main_v42_apply, e2 (idx_main_v42 (ix2 r c)) r (0 : Fin 1) rfl rfl, norm_apply]
  simp only [act_apply, feats_apply]
  rfl

end Cert.ReferenceIdeal.Row

end
-- ==== Proof.Bridge.lean ====
/-
  The two programs meet: the reference's result is the kernel's function of the arrays its region finds.

  Before its one region the kernel's program gathers, on the host, the nodes' own rows and the two kinds of neighbour
  rows out of the table — the very gathers the reference starts with, of the same arguments — and reshapes the bias to
  one row; the weights reach the region as launched. So the arrays the region finds are the reference's gathered arrays
  (one and the same gather term on both sides), and entry (0, l) of the bias row is entry l of the bias. Both
  results are then, index by index, the same row function of the same rows.
-/
import proofs.«163012_j841813590040_1_alg».proof.Proof.KernelArray
import proofs.«163012_j841813590040_1_alg».proof.Proof.RefRow
import Idealize.ShloMosaic.Lib.StableHlo.Run
import Idealize.ShloMosaic.Lib.ValueLayout

noncomputable section

namespace Cert.Proof.Bridge

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The nodes' own rows as the region finds them: the reference's gather of the table at the node ids. -/
theorem V_self (c : Dev nD) : (V m c main_v6 : FVec Ideal S50000x128 .f32)
    = Cert.ReferenceIdeal.Read.val_main_v6 (F := Ideal) (m ((c : Thread nD τ).loc main_arg0)) (m ((c : Thread nD τ).loc main_arg3)) := by
  dsimp only [V, hostOps0]; after_results; rfl

set_option maxHeartbeats 1600000 in
/-- The first kind of neighbour rows as the region finds them: the reference's gather at the first neighbour ids. -/
theorem V_adj (c : Dev nD) : (V m c main_v13 : FVec Ideal S50000x32x128 .f32)
    = Cert.ReferenceIdeal.Read.val_main_v14 (F := Ideal) (m ((c : Thread nD τ).loc main_arg1)) (m ((c : Thread nD τ).loc main_arg3)) := by
  dsimp only [V, hostOps0]; after_results; rfl

set_option maxHeartbeats 1600000 in
/-- The second kind of neighbour rows as the region finds them: the reference's gather at the second neighbour ids. -/
theorem V_dis (c : Dev nD) : (V m c main_v20 : FVec Ideal S50000x32x128 .f32)
    = Cert.ReferenceIdeal.Read.val_main_v25 (F := Ideal) (m ((c : Thread nD τ).loc main_arg2)) (m ((c : Thread nD τ).loc main_arg3)) := by
  dsimp only [V, hostOps0]; after_results; rfl

/-- The bias row as the region finds it, at lane l: the bias at l (the reshape to one row keeps the order). -/
theorem V_bias (c : Dev nD) (l : Fin 384) :
    (V m c main_v21 : FVec Ideal S1x384 .f32) (ix2 (0 : Fin 1) l) = ((m ((c : Thread nD τ).loc main_arg7)) : FVec Ideal S384 .f32) (ix1 l) := by
  have e : (V m c main_v21 : FVec Ideal S1x384 .f32) = shapeCast S1x384 (m ((c : Thread nD τ).loc main_arg7)) shapeCasts_S384_S1x384 := by
    dsimp only [V, hostOps0]; after_results; rfl
  rw [e]
  exact shapeCast_a_1a_apply _ _ (0 : Fin 1) l

/-- THE REFERENCE'S RESULT, of the kernel's arguments, IS THE KERNEL'S `G` of the arrays its region finds. -/
theorem ref_eq_G (c : Dev nD) :
    Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = Cert.KernelIdeal.Whole.G (V m c main_v6) (V m c main_v13) (V m c main_v20) (V m c main_arg4) (V m c main_arg5) (V m c main_arg6) (V m c main_v21) := by
  funext i
  obtain ⟨r, l, rfl⟩ : ∃ (r : Fin 50000) (l : Fin 384), i = ix2 r l := ⟨i 0, i 1, eq_ix2 i⟩
  refine (Cert.ReferenceIdeal.Row.out_apply _ _ _ _ _ _ _ _ r l).trans ?_
  show _ = Cert.KernelIdeal.Whole.Grow (V m c main_v6) (V m c main_v13) (V m c main_v20) (V m c main_arg4) (V m c main_arg5) (V m c main_arg6) (V m c main_v21) r l
  unfold Cert.KernelIdeal.Whole.Grow
  exact Cert.KernelIdeal.Whole.out_congr
    (funext fun q => (congrFun (V_self m c) (ix2 r q)).symm)
    (funext fun j => funext fun q => (congrFun (V_adj m c) (ix3 r j q)).symm)
    (funext fun j => funext fun q => (congrFun (V_dis m c) (ix3 r j q)).symm)
    (funext fun q => funext fun l' => (congrFun (V_main_arg4 m c) (ix2 q l')).symm)
    (funext fun q => funext fun l' => (congrFun (V_main_arg5 m c) (ix2 q l')).symm)
    (funext fun q => funext fun l' => (congrFun (V_main_arg6 m c) (ix2 q l')).symm)
    (funext fun l' => (V_bias m c l').symm) l

end Cert.Proof.Bridge

end
-- ==== Proof.lean ====
/-
  The certificate's claims for the neighbour-mean graph layer (three projected branches, bias, leaky rectifier,
  row normalisation) against its jnp reference.

  The three frames: the kernel's two programs run to the end with their arguments unchanged by their generated frame
  runs; the reference is a host program, and its generated run, with the result forgotten, is its frame. The ideal pass
  rewrote nothing, so the kernel's idealization is its own text read over the extended reals. The value claim: after the
  kernel's run the result array is one function `G` of the arrays its region finds (each grid point writes 400 rows of
  it, and the 125 points' rows tile the array); the reference's result is the composed term of its operations; and the
  two are equal entry by entry because each entry is the same row function — the three projections side by side, plus
  the bias, through the rectifier, over the row's norm held above a small constant — of the same rows, the host gathers
  that feed both being one term. No step uses that the inputs are finite: every law applied is a re-indexing of a sum or
  a reading of a layout operation, none moves a factor across a sum.
-/
import proofs.«163012_j841813590040_1_alg».proof.Defs
import proofs.«163012_j841813590040_1_alg».proof.Proof.Gen.Kernel
import proofs.«163012_j841813590040_1_alg».proof.Proof.Gen.Kernel.Skeleton
import proofs.«163012_j841813590040_1_alg».proof.Proof.Gen.Kernel.Launch
import proofs.«163012_j841813590040_1_alg».proof.Proof.Gen.Kernel.Points
import proofs.«163012_j841813590040_1_alg».proof.Proof.Gen.Kernel.Frame
import proofs.«163012_j841813590040_1_alg».proof.Proof.Gen.KernelIdeal
import proofs.«163012_j841813590040_1_alg».proof.Proof.Gen.KernelIdeal.Skeleton
import proofs.«163012_j841813590040_1_alg».proof.Proof.Gen.KernelIdeal.Launch
import proofs.«163012_j841813590040_1_alg».proof.Proof.Gen.KernelIdeal.Points
import proofs.«163012_j841813590040_1_alg».proof.Proof.Gen.KernelIdeal.Frame
import proofs.«163012_j841813590040_1_alg».proof.Proof.Gen.ReferenceIdeal
import proofs.«163012_j841813590040_1_alg».proof.Proof.Gen.Pre_finite_inputs
import proofs.«163012_j841813590040_1_alg».proof.Proof.Gen.KernelIdeal.Value
import proofs.«163012_j841813590040_1_alg».proof.Proof.Gen.ReferenceIdeal.Run
import proofs.«163012_j841813590040_1_alg».proof.Proof.Gen.ReferenceIdeal.Read
import proofs.«163012_j841813590040_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result forgotten, is its frame. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments the two idealized programs end with equal results: the kernel's array is
    `G` of the arrays its region finds, the reference's is its operations' composed term of the same arguments, and
    that term is `G`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v43_eq, h0, h1, h2, h3, h4, h5, h6, h7]
  exact Cert.Proof.Bridge.ref_eq_G m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
